-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x128 : Shape := ⟨2, ![100000, 128]⟩
abbrev S128x128 : Shape := ⟨2, ![128, 128]⟩
abbrev S1x128 : Shape := ⟨2, ![1, 128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg6 : FVec F S128x128 .f32) (main_arg7 : FVec F S1x128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S1x128 .f32 := Host.absf main_arg7
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  main_v28

def fn {F : FTy → Type} [FloatOps F] (main_arg0 : IVec S1600000 32) (main_arg1 : IVec S1600000 32) (main_arg2 : FVec F S1600000 .f32) (main_arg3 : FVec F S100000x128 .f32) (main_arg4 : FVec F S128x128 .f32) (main_arg5 : FVec F S1x128 .f32) (main_arg6 : FVec F S128x128 .f32) (main_arg7 : FVec F S1x128 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg6 main_arg7 main_v13 main_v16
-- ==== Kernel.lean ====
abbrev S1600000 : Shape := ⟨1, ![1600000]⟩
abbrev S100000x128 : Shape := ⟨2, ![100000, 128]⟩
abbrev S128x128 : Shape := ⟨2, ![128, 128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩
abbrev S4000x128 : Shape := ⟨2, ![4000, 128]⟩

abbrev nBuf : Space → Nat
  | .hbm => 25
  | .vmem => 10
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x128, .f32⟩
  | .hbm, ⟨4, _⟩ => ⟨S128x128, .f32⟩
  | .hbm, ⟨5, _⟩ => ⟨S1x128, .f32⟩
  | .hbm, ⟨6, _⟩ => ⟨S128x128, .f32⟩
  | .hbm, ⟨7, _⟩ => ⟨S1x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v12) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1600000 : Shape := ⟨1, ![1600000]⟩
abbrev S100000x128 : Shape := ⟨2, ![100000, 128]⟩
abbrev S128x128 : Shape := ⟨2, ![128, 128]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 32
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x128, .f32⟩
  | .hbm, ⟨4, _⟩ => ⟨S128x128, .f32⟩
  | .hbm, ⟨5, _⟩ => ⟨S1x128, .f32⟩
  | .hbm, ⟨6, _⟩ => ⟨S128x128, .f32⟩
  | .hbm, ⟨7, _⟩ => ⟨S1x128, .f32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Projection.lean ====
/-
  What both programs compute once the sparse product is done. For a table `L` of aggregated messages (one row of
  128 features per node), the previous embeddings `E` of the same extents, two 128 × 128 weight matrices and two
  bias rows, entry (r, j) of the result is

      (Σ_k L[r,k] · W1[k,j] + b1[0,j])  +  (Σ_k (E[r,k] · L[r,k]) · W2[k,j] + b2[0,j])

  on the extended reals. Row r of the result depends on row r of `L` and of `E` only, so the same expression,
  over any number of rows, also describes one block of rows; `entry_congr` is that remark.
  Nothing here mentions a program.
-/
import Idealize.ShloMosaic.Lib.ValueIdx

noncomputable section

open scoped BigOperators

namespace Cert.Projection

open Idealize.ShloMosaic Idealize.ShloMosaic.ValueIdx

/-- Entry (r, j) of `X · W + b` for a table `X` of `n` rows of 128 features: the bias row is added to every row. -/
def affine {n : Nat} (X : (⟨2, ![n, 128]⟩ : Shape).Idx → EReal) (W : (⟨2, ![128, 128]⟩ : Shape).Idx → EReal)
    (b : (⟨2, ![1, 128]⟩ : Shape).Idx → EReal) (r : Fin n) (j : Fin 128) : EReal :=
  (∑ k : Fin 128, X (ix2 r k) * W (ix2 k j)) + b (ix2 0 j)

/-- Entry (r, j) of the result: the projection of the messages plus the projection of the embeddings gated,
    feature by feature, by the messages. -/
def entry {n : Nat} (L E : (⟨2, ![n, 128]⟩ : Shape).Idx → EReal)
    (W1 : (⟨2, ![128, 128]⟩ : Shape).Idx → EReal) (b1 : (⟨2, ![1, 128]⟩ : Shape).Idx → EReal)
    (W2 : (⟨2, ![128, 128]⟩ : Shape).Idx → EReal) (b2 : (⟨2, ![1, 128]⟩ : Shape).Idx → EReal)
    (r : Fin n) (j : Fin 128) : EReal :=
  affine L W1 b1 r j + affine (fun x => E x * L x) W2 b2 r j

/-- The whole result, over all 100000 nodes. -/
def fused (L E : (⟨2, ![100000, 128]⟩ : Shape).Idx → EReal)
    (W1 : (⟨2, ![128, 128]⟩ : Shape).Idx → EReal) (b1 : (⟨2, ![1, 128]⟩ : Shape).Idx → EReal)
    (W2 : (⟨2, ![128, 128]⟩ : Shape).Idx → EReal) (b2 : (⟨2, ![1, 128]⟩ : Shape).Idx → EReal) :
    (⟨2, ![100000, 128]⟩ : Shape).Idx → EReal :=
  fun i => entry L E W1 b1 W2 b2 (i 0) (i 1)

theorem fused_ix2 (L E : (⟨2, ![100000, 128]⟩ : Shape).Idx → EReal)
    (W1 : (⟨2, ![128, 128]⟩ : Shape).Idx → EReal) (b1 : (⟨2, ![1, 128]⟩ : Shape).Idx → EReal)
    (W2 : (⟨2, ![128, 128]⟩ : Shape).Idx → EReal) (b2 : (⟨2, ![1, 128]⟩ : Shape).Idx → EReal)
    (r : Fin 100000) (j : Fin 128) : fused L E W1 b1 W2 b2 (ix2 r j) = entry L E W1 b1 W2 b2 r j := rfl

/-- An entry reads one row of each table: two pairs of tables, of any numbers of rows, that agree along row `p`
    of the one and row `r` of the other give the same entries there. -/
theorem entry_congr {n n' : Nat} (L E : (⟨2, ![n, 128]⟩ : Shape).Idx → EReal) (L' E' : (⟨2, ![n', 128]⟩ : Shape).Idx → EReal)
    (W1 : (⟨2, ![128, 128]⟩ : Shape).Idx → EReal) (b1 : (⟨2, ![1, 128]⟩ : Shape).Idx → EReal)
    (W2 : (⟨2, ![128, 128]⟩ : Shape).Idx → EReal) (b2 : (⟨2, ![1, 128]⟩ : Shape).Idx → EReal)
    (p : Fin n) (r : Fin n') (j : Fin 128)
    (hL : ∀ k : Fin 128, L (ix2 p k) = L' (ix2 r k)) (hE : ∀ k : Fin 128, E (ix2 p k) = E' (ix2 r k)) :
    entry L E W1 b1 W2 b2 p j = entry L' E' W1 b1 W2 b2 r j := by
  unfold entry affine
  simp only [hL, hE]

end Cert.Projection

end
-- ==== Proof.ReferenceValue.lean ====
/-
  The reference's last stage is `Projection.fused` of its own aggregated messages: read at (r, j), the two
  `dot_general`s are the sums over the contracted feature axis, each bias row is broadcast down the rows, and the
  gated embeddings are the entrywise product, in the order the specification writes them.
  The sparse product that yields the messages (stage `val_main_v12`) is kept as one unopened function of the edge
  lists and the embeddings.
-/
import proofs.«146174_j45715631898813_1_alg».proof.Proof.Gen.ReferenceIdeal.Read
import proofs.«146174_j45715631898813_1_alg».proof.Proof.Projection

noncomputable section

open scoped BigOperators

namespace Cert.ReferenceIdeal.Projected

open Cert.ReferenceIdeal Cert.ReferenceIdeal.Read Idealize.ShloMosaic Idealize.ShloMosaic.ValueIdx Cert.Projection

theorem result_eq (x0 x1 : (⟨S1600000, .i32⟩ : BufTy).Contents (Elt Ideal)) (x2 : (⟨S1600000, .f32⟩ : BufTy).Contents (Elt Ideal))
    (x3 : (⟨S100000x128, .f32⟩ : BufTy).Contents (Elt Ideal)) (x4 : (⟨S128x128, .f32⟩ : BufTy).Contents (Elt Ideal))
    (x5 : (⟨S1x128, .f32⟩ : BufTy).Contents (Elt Ideal)) (x6 : (⟨S128x128, .f32⟩ : BufTy).Contents (Elt Ideal))
    (x7 : (⟨S1x128, .f32⟩ : BufTy).Contents (Elt Ideal)) :
    val_main_v20 (F := Ideal) x0 x1 x2 x3 x4 x5 x6 x7
      = fused (val_main_v12 (F := Ideal) x0 x1 x2 x3) x3 x4 x5 x6 x7 := by
  funext i
  obtain ⟨r, j, rfl⟩ : ∃ (r : Fin 100000) (j : Fin 128), i = ix2 r j := ⟨i 0, i 1, eq_ix2 i⟩
  have el13 : ∀ k : Fin 128, lidx_main_v13 (ix2 r j) k = ix2 r k := fun k =>
    funext fun a => Fin.ext (by match a with | ⟨0, _⟩ => rfl | ⟨1, _⟩ => rfl)
  have er13 : ∀ k : Fin 128, ridx_main_v13 (ix2 r j) k = ix2 k j := fun k =>
    funext fun a => Fin.ext (by match a with | ⟨0, _⟩ => rfl | ⟨1, _⟩ => rfl)
  have el17 : ∀ k : Fin 128, lidx_main_v17 (ix2 r j) k = ix2 r k := fun k =>
    funext fun a => Fin.ext (by match a with | ⟨0, _⟩ => rfl | ⟨1, _⟩ => rfl)
  have er17 : ∀ k : Fin 128, ridx_main_v17 (ix2 r j) k = ix2 k j := fun k =>
    funext fun a => Fin.ext (by match a with | ⟨0, _⟩ => rfl | ⟨1, _⟩ => rfl)
  have eb14 : idx_main_v14 (ix2 r j) = ix2 (0 : Fin 1) j :=
    funext fun a => Fin.ext (by match a with | ⟨0, _⟩ => rfl | ⟨1, _⟩ => rfl)
  have eb18 : idx_main_v18 (ix2 r j) = ix2 (0 : Fin 1) j :=
    funext fun a => Fin.ext (by match a with | ⟨0, _⟩ => rfl | ⟨1, _⟩ => rfl)
  rw [fused_ix2, val_main_v20_apply, val_main_v15_apply, val_main_v19_apply, val_main_v13_apply, val_main_v14_apply,
    val_main_v17_apply, val_main_v18_apply]
  unfold entry affine
  simp only [val_main_v16_apply, el13, er13, el17, er17, eb14, eb18, Ideal.addf_def, Ideal.mulf_def]

end Cert.ReferenceIdeal.Projected

end
-- ==== Proof.Messages.lean ====
/-
  The aggregated messages. Before the region is entered the program gathers, for every edge, the embedding row of the
  edge's source node, scales it by the edge's value, and adds the rows up per destination node. The reference begins
  with the same operations, so the array the region finds is the reference's stage of the launch contents: the same
  function of the two edge lists, the edge values and the embeddings. That function is never opened.
-/
import proofs.«146174_j45715631898813_1_alg».proof.Proof.Gen.KernelIdeal.Frame
import proofs.«146174_j45715631898813_1_alg».proof.Proof.Gen.ReferenceIdeal.Read
import Idealize.ShloMosaic.Lib.StableHlo.Run

noncomputable section

namespace Cert.KernelIdeal.Messages

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- What the region finds in the messages' array, as the reference's sparse product of the launch contents. -/
theorem found (c : Dev nD) :
    (V m c main_v12 : S100000x128.Idx → EReal)
      = Cert.ReferenceIdeal.Read.val_main_v12 (F := Ideal) (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

end Cert.KernelIdeal.Messages

end
-- ==== Proof.BodyValue.lean ====
/-
  One block of the kernel, at one entry. The body loads a block of 4000 rows of the aggregated messages and of the
  embeddings, both weight matrices and both bias rows, and stores

      (msg ⬝ W1 + b1) + ((emb ⊙ msg) ⬝ W2 + b2).

  On the extended reals rounding to bf16 on the way into a product is the identity, a product accumulated into the
  zero block is the sum over the 128 shared features, and a bias row broadcast over the block is read at its column:
  so entry (p, q) of what the body stores is `Projection.entry` of the loaded blocks at (p, q).
-/
import proofs.«146174_j45715631898813_1_alg».proof.Proof.Gen.KernelIdeal.Skeleton
import proofs.«146174_j45715631898813_1_alg».proof.Proof.Projection
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Projection

/-! ## The product's operand indices: rows and columns pass through, the shared axis is the contraction's -/

theorem lhs_row (i : S4000x128.Idx) (κ : dot_S4000x128_S128x128_S4000x128_1_0_0_1_n_n.contr.Idx) : (dot_S4000x128_S128x128_S4000x128_1_0_0_1_n_n.lhsIdx i κ 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem lhs_shared (i : S4000x128.Idx) (κ : dot_S4000x128_S128x128_S4000x128_1_0_0_1_n_n.contr.Idx) : (dot_S4000x128_S128x128_S4000x128_1_0_0_1_n_n.lhsIdx i κ 1).val = (κ ⟨0, by decide⟩).val :=
  dot_S4000x128_S128x128_S4000x128_1_0_0_1_n_n.lhsIdx_val_of_single rfl i κ
theorem rhs_shared (i : S4000x128.Idx) (κ : dot_S4000x128_S128x128_S4000x128_1_0_0_1_n_n.contr.Idx) : (dot_S4000x128_S128x128_S4000x128_1_0_0_1_n_n.rhsIdx i κ 0).val = (κ ⟨0, by decide⟩).val :=
  dot_S4000x128_S128x128_S4000x128_1_0_0_1_n_n.rhsIdx_val_of_single rfl i κ
theorem rhs_col (i : S4000x128.Idx) (κ : dot_S4000x128_S128x128_S4000x128_1_0_0_1_n_n.contr.Idx) : (dot_S4000x128_S128x128_S4000x128_1_0_0_1_n_n.rhsIdx i κ 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A 4000 × 128 block times a 128 × 128 matrix, accumulated into the zero block, read at (p, q): the sum over the
    shared axis of row p of the block against column q of the matrix. -/
theorem block_matmul (A : FVec Ideal S4000x128 .bf16) (B : FVec Ideal S128x128 .bf16) (p : Fin 4000) (q : Fin 128) :
    matmul (F := Ideal) dot_S4000x128_S128x128_S4000x128_1_0_0_1_n_n none A B (constant S4000x128 .f32 0x00000000#32) (ix2 p q)
      = ∑ k : Fin 128, A (ix2 p k) * B (ix2 k q) := by
  refine (Ideal.matmul_constant_zero_apply dot_S4000x128_S128x128_S4000x128_1_0_0_1_n_n none A B (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun a => Fin.ext (by
    match a with
    | ⟨0, _⟩ => exact lhs_row _ _
    | ⟨1, _⟩ => exact (lhs_shared _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun a => Fin.ext (by
    match a with
    | ⟨0, _⟩ => exact (rhs_shared _ _).trans hk
    | ⟨1, _⟩ => exact rhs_col _ _)
  rw [el, er]

/-! ## What the body stores, at an entry -/

/-- Entry (p, q) of the stored block is the specification's entry of the loaded blocks. -/
theorem payload_at (msg emb : Vec Ideal S4000x128 .f32) (w1 : Vec Ideal S128x128 .f32) (b1 : Vec Ideal S1x128 .f32)
    (w2 : Vec Ideal S128x128 .f32) (b2 : Vec Ideal S1x128 .f32) (p : Fin 4000) (q : Fin 128) :
    k0_pay1 (F := Ideal) msg emb w1 b1 w2 b2 (ix2 p q) = entry msg emb w1 b1 w2 b2 p q := by
  unfold k0_pay1
  rw [shapeCast_self]
  simp only [addf_apply]
  rw [block_matmul, block_matmul, broadcastTo_1b_ab_apply, broadcastTo_1b_ab_apply]
  rfl

end Cert.KernelIdeal.Body

end
-- ==== Proof.BlockRows.lean ====
/-
  How the 25 grid points cut the arrays, stated for ANY contents of an array. Point t stages rows
  4000·t … 4000·t + 3999 of the two node tables (the aggregated messages and the embeddings) and writes back the same
  rows of the result; the weight matrices and bias rows are staged whole at every point. So a block read at (p, k) is
  the array read at (4000·t + p, k); a staged matrix or bias row is the array itself; a block that agrees with a
  function of the array row by row is that function's block; and the 25 row blocks tile the 100000 rows.
-/
import proofs.«146174_j45715631898813_1_alg».proof.Proof.Gen.KernelIdeal.Launch
import proofs.«146174_j45715631898813_1_alg».proof.Proof.Gen.KernelIdeal.Points
import Idealize.ShloMosaic.Lib.Pipeline.Value
import Idealize.ShloMosaic.Lib.ValueIdx

noncomputable section

namespace Cert.KernelIdeal.Rows

open Cert.KernelIdeal Cert.KernelIdeal.Gen Idealize.ShloMosaic Idealize.ShloMosaic.TcCoe Idealize.SL.Sem
open Idealize.ShloMosaic.ValueIdx

/-- The index maps, decided over the 25 points: the three row-blocked windows (messages, embeddings, result) sit at
    block (t, 0), the four whole windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-! ## A row block read at an entry -/

/-- Row p of the messages' block at point t is row 4000·t + p of the array. -/
theorem msg_rows (G : S100000x128.Idx → EReal) (t : Fin cfg0.N) (p : Fin 4000) (k : Fin 128) (r : Fin 100000)
    (hr : r.val = 4000 * t.val + p.val) :
    (((cfg0.win 0).blk t).view.read (Elt Ideal) G : Vec Ideal S4000x128 .f32) (ix2 p k) = G (ix2 r k) := by
  show G (((cfg0.win 0).blk t).view.emb (ix2 p k)) = G (ix2 r k)
  refine congrArg G (funext fun a => Fin.ext ?_)
  have e := idx_facts t
  match a with
  | ⟨0, _⟩ => show win0_0.index t (0 : Fin 2) * 4000 + 1 * p.val = r.val; rw [e.1.1, hr]; omega
  | ⟨1, _⟩ => show win0_0.index t (1 : Fin 2) * 128 + 1 * k.val = k.val; rw [e.1.2]; omega

/-- Row p of the embeddings' block at point t is row 4000·t + p of the array. -/
theorem emb_rows (G : S100000x128.Idx → EReal) (t : Fin cfg0.N) (p : Fin 4000) (k : Fin 128) (r : Fin 100000)
    (hr : r.val = 4000 * t.val + p.val) :
    (((cfg0.win 1).blk t).view.read (Elt Ideal) G : Vec Ideal S4000x128 .f32) (ix2 p k) = G (ix2 r k) := by
  show G (((cfg0.win 1).blk t).view.emb (ix2 p k)) = G (ix2 r k)
  refine congrArg G (funext fun a => Fin.ext ?_)
  have e := idx_facts t
  match a with
  | ⟨0, _⟩ => show win0_1.index t (0 : Fin 2) * 4000 + 1 * p.val = r.val; rw [e.2.1.1, hr]; omega
  | ⟨1, _⟩ => show win0_1.index t (1 : Fin 2) * 128 + 1 * k.val = k.val; rw [e.2.1.2]; omega

/-- Row p of the result's block at point t is row 4000·t + p of the array. -/
theorem out_rows (G : S100000x128.Idx → EReal) (t : Fin cfg0.N) (p : Fin 4000) (k : Fin 128) (r : Fin 100000)
    (hr : r.val = 4000 * t.val + p.val) :
    (((cfg0.win 6).blk t).view.read (Elt Ideal) G : Vec Ideal S4000x128 .f32) (ix2 p k) = G (ix2 r k) := by
  show G (((cfg0.win 6).blk t).view.emb (ix2 p k)) = G (ix2 r k)
  refine congrArg G (funext fun a => Fin.ext ?_)
  have e := idx_facts t
  match a with
  | ⟨0, _⟩ => show win0_6.index t (0 : Fin 2) * 4000 + 1 * p.val = r.val; rw [e.2.2.2.2.2.2.1, hr]; omega
  | ⟨1, _⟩ => show win0_6.index t (1 : Fin 2) * 128 + 1 * k.val = k.val; rw [e.2.2.2.2.2.2.2]; omega

/-! ## The windows staged whole -/

/-- The first weight matrix's block, at any point, is the matrix. -/
theorem w1_whole (G : S128x128.Idx → EReal) (t : Fin cfg0.N) :
    (((cfg0.win 2).blk t).view.read (Elt Ideal) G : Vec Ideal S128x128 .f32) = G := by
  funext y
  show G (((cfg0.win 2).blk t).view.emb y) = G y
  refine congrArg G (funext fun a => Fin.ext ?_)
  have e := idx_facts t
  match a with
  | ⟨0, _⟩ => show win0_2.index t (0 : Fin 2) * 128 + 1 * (y 0).val = (y 0).val; rw [e.2.2.1.1]; omega
  | ⟨1, _⟩ => show win0_2.index t (1 : Fin 2) * 128 + 1 * (y 1).val = (y 1).val; rw [e.2.2.1.2]; omega

/-- The first bias row's block, at any point, is the row. -/
theorem b1_whole (G : S1x128.Idx → EReal) (t : Fin cfg0.N) :
    (((cfg0.win 3).blk t).view.read (Elt Ideal) G : Vec Ideal S1x128 .f32) = G := by
  funext y
  show G (((cfg0.win 3).blk t).view.emb y) = G y
  refine congrArg G (funext fun a => Fin.ext ?_)
  have e := idx_facts t
  match a with
  | ⟨0, _⟩ => show win0_3.index t (0 : Fin 2) * 1 + 1 * (y 0).val = (y 0).val; rw [e.2.2.2.1.1]; omega
  | ⟨1, _⟩ => show win0_3.index t (1 : Fin 2) * 128 + 1 * (y 1).val = (y 1).val; rw [e.2.2.2.1.2]; omega

/-- The second weight matrix's block, at any point, is the matrix. -/
theorem w2_whole (G : S128x128.Idx → EReal) (t : Fin cfg0.N) :
    (((cfg0.win 4).blk t).view.read (Elt Ideal) G : Vec Ideal S128x128 .f32) = G := by
  funext y
  show G (((cfg0.win 4).blk t).view.emb y) = G y
  refine congrArg G (funext fun a => Fin.ext ?_)
  have e := idx_facts t
  match a with
  | ⟨0, _⟩ => show win0_4.index t (0 : Fin 2) * 128 + 1 * (y 0).val = (y 0).val; rw [e.2.2.2.2.1.1]; omega
  | ⟨1, _⟩ => show win0_4.index t (1 : Fin 2) * 128 + 1 * (y 1).val = (y 1).val; rw [e.2.2.2.2.1.2]; omega

/-- The second bias row's block, at any point, is the row. -/
theorem b2_whole (G : S1x128.Idx → EReal) (t : Fin cfg0.N) :
    (((cfg0.win 5).blk t).view.read (Elt Ideal) G : Vec Ideal S1x128 .f32) = G := by
  funext y
  show G (((cfg0.win 5).blk t).view.emb y) = G y
  refine congrArg G (funext fun a => Fin.ext ?_)
  have e := idx_facts t
  match a with
  | ⟨0, _⟩ => show win0_5.index t (0 : Fin 2) * 1 + 1 * (y 0).val = (y 0).val; rw [e.2.2.2.2.2.1.1]; omega
  | ⟨1, _⟩ => show win0_5.index t (1 : Fin 2) * 128 + 1 * (y 1).val = (y 1).val; rw [e.2.2.2.2.2.1.2]; omega

/-! ## A written-back block that agrees with a function of the array, row by row -/

/-- If the block a point leaves agrees, at every (p, q), with `G` at row 4000·t + p, then what the point writes back
    is block t of `G`. -/
theorem cut_eq_read (G : S100000x128.Idx → EReal) (t : Fin cfg0.N) (B : Vec Ideal S4000x128 .f32)
    (hB : ∀ (p : Fin 4000) (q : Fin 128) (r : Fin 100000), r.val = 4000 * t.val + p.val → B (ix2 p q) = G (ix2 r q)) :
    (cfg0.win 6).cut (grid0.coords t) B = ((cfg0.win 6).blk t).view.read (Elt Ideal) G := by
  funext j
  obtain ⟨p, q, rfl⟩ : ∃ (p : Fin 4000) (q : Fin 128), j = ix2 p q := ⟨j 0, j 1, eq_ix2 j⟩
  have hN : cfg0.N = 25 := N_0
  have ht : t.val < 25 := hN ▸ t.isLt
  have hp : p.val < 4000 := p.isLt
  show B (ix2 p q) = (((cfg0.win 6).blk t).view.read (Elt Ideal) G : Vec Ideal S4000x128 .f32) (ix2 p q)
  rw [out_rows G t p q ⟨4000 * t.val + p.val, by omega⟩ rfl]
  exact hB p q _ rfl

/-! ## The 25 row blocks tile the rows -/

/-- An index of the array is in point t's block iff each coordinate is in the block's range on its axis. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v13).slice (win0_6.rect t)).set ↔ _
  rw [View.set_slice_whole, Rect.mem_set_unit]
  exact Iff.rfl

/-- Every row is in the block of the point numbered by its quotient by 4000, and every point writes back. -/
theorem covered (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  have htv : t.val = (i 0).val / 4000 := rfl
  refine ⟨t, flush0_6 t, ?_⟩
  rw [mem_blk]
  have e := idx_facts t
  intro a
  match a with
  | ⟨0, _⟩ => show win0_6.index t (0 : Fin 2) * 4000 ≤ (i 0).val ∧ (i 0).val < win0_6.index t (0 : Fin 2) * 4000 + 4000; rw [e.2.2.2.2.2.2.1, htv]; omega
  | ⟨1, _⟩ => show win0_6.index t (1 : Fin 2) * 128 ≤ (i 1).val ∧ (i 1).val < win0_6.index t (1 : Fin 2) * 128 + 128; rw [e.2.2.2.2.2.2.2]; omega

end Cert.KernelIdeal.Rows

end
-- ==== Proof.KernelValue.lean ====
/-
  From blocks to the whole array. What a grid point leaves in the result's staging buffer is, entry by entry, the
  specification's entry of the blocks it staged (the body's value); those blocks are rows 4000·t … 4000·t + 3999 of
  the aggregated messages and of the embeddings and the weights and biases whole; an entry of the specification reads
  its own row only. So point t writes back block t of `Projection.fused` of the arrays as the region finds them, and
  since the 25 blocks tile the rows the result array ends as that function.
-/
import proofs.«146174_j45715631898813_1_alg».proof.Proof.Gen.KernelIdeal.Value
import proofs.«146174_j45715631898813_1_alg».proof.Proof.BodyValue
import proofs.«146174_j45715631898813_1_alg».proof.Proof.BlockRows
import proofs.«146174_j45715631898813_1_alg».proof.Proof.Projection
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.Projection
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the body leaves, at an entry, for any staged blocks -/

/-- Entry (p, q) of the result's staging buffer after the body is the specification's entry of the staged blocks. -/
theorem out_entry (msg emb : Vec Ideal S4000x128 .f32) (w1 : Vec Ideal S128x128 .f32) (b1 : Vec Ideal S1x128 .f32)
    (w2 : Vec Ideal S128x128 .f32) (b2 : Vec Ideal S1x128 .f32) (p : Fin 4000) (q : Fin 128) :
    out0_6 (F := Ideal) msg emb w1 b1 w2 b2 (ix2 p q) = entry msg emb w1 b1 w2 b2 p q := by
  unfold out0_6
  rw [View.canon_unit_zero hz]
  simp only [View.ld_unit_zero (S := S4000x128) hz, View.ld_unit_zero (S := S128x128) hz, View.ld_unit_zero (S := S1x128) hz]
  exact Body.payload_at msg emb w1 b1 w2 b2 p q

/-! ## Each staged block, as entries of the array the region finds -/

/-- Row p of the block of messages at point t is row 4000·t + p of the array. -/
theorem msg_block (c : Dev nD) (t : Fin cfg0.N) (p : Fin 4000) (k : Fin 128) (r : Fin 100000) (hr : r.val = 4000 * t.val + p.val) :
    (iblk m c 0 t : Vec Ideal S4000x128 .f32) (ix2 p k) = (V m c (Pipeline.arrRef spec0 0) : S100000x128.Idx → EReal) (ix2 r k) := by
  unfold iblk
  generalize V m c (Pipeline.arrRef spec0 0) = G
  exact Rows.msg_rows G t p k r hr

/-- Row p of the block of embeddings at point t is row 4000·t + p of the array. -/
theorem emb_block (c : Dev nD) (t : Fin cfg0.N) (p : Fin 4000) (k : Fin 128) (r : Fin 100000) (hr : r.val = 4000 * t.val + p.val) :
    (iblk m c 1 t : Vec Ideal S4000x128 .f32) (ix2 p k) = (V m c (Pipeline.arrRef spec0 1) : S100000x128.Idx → EReal) (ix2 r k) := by
  unfold iblk
  generalize V m c (Pipeline.arrRef spec0 1) = G
  exact Rows.emb_rows G t p k r hr

/-- The first weight matrix is staged whole at every point. -/
theorem w1_block (c : Dev nD) (t : Fin cfg0.N) :
    (iblk m c 2 t : Vec Ideal S128x128 .f32) = (V m c (Pipeline.arrRef spec0 2) : S128x128.Idx → EReal) := by
  unfold iblk
  generalize V m c (Pipeline.arrRef spec0 2) = G
  exact Rows.w1_whole G t

/-- The first bias row is staged whole at every point. -/
theorem b1_block (c : Dev nD) (t : Fin cfg0.N) :
    (iblk m c 3 t : Vec Ideal S1x128 .f32) = (V m c (Pipeline.arrRef spec0 3) : S1x128.Idx → EReal) := by
  unfold iblk
  generalize V m c (Pipeline.arrRef spec0 3) = G
  exact Rows.b1_whole G t

/-- The second weight matrix is staged whole at every point. -/
theorem w2_block (c : Dev nD) (t : Fin cfg0.N) :
    (iblk m c 4 t : Vec Ideal S128x128 .f32) = (V m c (Pipeline.arrRef spec0 4) : S128x128.Idx → EReal) := by
  unfold iblk
  generalize V m c (Pipeline.arrRef spec0 4) = G
  exact Rows.w2_whole G t

/-- The second bias row is staged whole at every point. -/
theorem b2_block (c : Dev nD) (t : Fin cfg0.N) :
    (iblk m c 5 t : Vec Ideal S1x128 .f32) = (V m c (Pipeline.arrRef spec0 5) : S1x128.Idx → EReal) := by
  unfold iblk
  generalize V m c (Pipeline.arrRef spec0 5) = G
  exact Rows.b2_whole G t

/-! ## What a point writes back; the array; the run -/

/-- The result, as a function of the arrays the region finds (window by window: the messages, the embeddings, the
    first weights and bias, the second weights and bias). -/
def target (c : Dev nD) : S100000x128.Idx → EReal :=
  fused (V m c (Pipeline.arrRef spec0 0) : S100000x128.Idx → EReal) (V m c (Pipeline.arrRef spec0 1) : S100000x128.Idx → EReal)
    (V m c (Pipeline.arrRef spec0 2) : S128x128.Idx → EReal) (V m c (Pipeline.arrRef spec0 3) : S1x128.Idx → EReal)
    (V m c (Pipeline.arrRef spec0 4) : S128x128.Idx → EReal) (V m c (Pipeline.arrRef spec0 5) : S1x128.Idx → EReal)

theorem target_ix2 (c : Dev nD) (r : Fin 100000) (q : Fin 128) :
    target m c (ix2 r q) = entry (V m c (Pipeline.arrRef spec0 0) : S100000x128.Idx → EReal) (V m c (Pipeline.arrRef spec0 1) : S100000x128.Idx → EReal)
      (V m c (Pipeline.arrRef spec0 2) : S128x128.Idx → EReal) (V m c (Pipeline.arrRef spec0 3) : S1x128.Idx → EReal)
      (V m c (Pipeline.arrRef spec0 4) : S128x128.Idx → EReal) (V m c (Pipeline.arrRef spec0 5) : S1x128.Idx → EReal) r q := rfl

/-- WHAT POINT t WRITES BACK is block t of the target. -/
theorem flushed_eq (c : Dev nD) (t : Fin cfg0.N) :
    (dats m 0 c).flushed 6 t = ((cfg0.win 6).blk t).view.read (Elt Ideal) (target m c) := by
  rw [flushed6]
  refine Rows.cut_eq_read (target m c) t (out0_6 (iblk m c 0 t) (iblk m c 1 t) (iblk m c 2 t) (iblk m c 3 t) (iblk m c 4 t) (iblk m c 5 t)) (fun p q r hr => ?_)
  rw [target_ix2]
  refine (out_entry (iblk m c 0 t) (iblk m c 1 t) (iblk m c 2 t) (iblk m c 3 t) (iblk m c 4 t) (iblk m c 5 t) p q).trans ?_
  rw [w1_block m c t, b1_block m c t, w2_block m c t, b2_block m c t]
  exact entry_congr (iblk m c 0 t) (iblk m c 1 t) (V m c (Pipeline.arrRef spec0 0)) (V m c (Pipeline.arrRef spec0 1))
    (V m c (Pipeline.arrRef spec0 2)) (V m c (Pipeline.arrRef spec0 3)) (V m c (Pipeline.arrRef spec0 4)) (V m c (Pipeline.arrRef spec0 5))
    p r q (fun k => msg_block m c t p k r hr) (fun k => emb_block m c t p k r hr)

/-- THE ARRAY after the run is the target. -/
theorem final (c : Dev nD) : (dats m 0 c).arrAt 6 cfg0.N = target m c :=
  (dats m 0 c).arrAt_eq_of_cover 6 (target m c) (fun t _ => flushed_eq m c t) Rows.covered

/-- The frame run re-posted: the result array at the target, the arguments unchanged. -/
theorem run : θ_run defs (onTc (τ := τ) (main (F := Ideal))) ⟨m, fun _ => 0, ρ⟩ fun r => ∀ c : Dev nD,
      r.2.mem ((c : Thread nD τ).loc main_v13) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Whole

end
-- ==== Proof.lean ====
/-
  The kernel computes a graph-convolution layer: per node, the messages aggregated over its incoming edges
  (`L = segment_sum(edge_vals · embeddings[edge_cols], edge_rows)`), then

      out = (L ⬝ W1 + b1) + ((embeddings ⊙ L) ⬝ W2 + b2).

  The sparse product `L` is formed by the same host operations in the kernel's program and in the reference, so it is
  carried as ONE unopened function of the edge lists, the edge values and the embeddings. The dense part is where
  the two differ in form: the kernel works through 25 blocks of 4000 rows, rounding to bf16 on the way into each
  matrix product and accumulating into a zero block; the reference multiplies the whole tables. On the extended reals
  rounding is the identity and a product into zero is the plain sum over the 128 shared features, and an entry of
  the result reads only its own row of `L` and of the embeddings: so each block the kernel writes back is the block of
  one whole-array function (`Projection.fused`), and the reference's last stage is that same function. The two sides
  write the sums and the two additions in the same order, so no law of the extended reals beyond that is used, and
  the finiteness of the inputs is never opened.
-/
import proofs.«146174_j45715631898813_1_alg».proof.Defs
import proofs.«146174_j45715631898813_1_alg».proof.Proof.Gen.Kernel
import proofs.«146174_j45715631898813_1_alg».proof.Proof.Gen.Kernel.Skeleton
import proofs.«146174_j45715631898813_1_alg».proof.Proof.Gen.Kernel.Launch
import proofs.«146174_j45715631898813_1_alg».proof.Proof.Gen.Kernel.Points
import proofs.«146174_j45715631898813_1_alg».proof.Proof.Gen.Kernel.Frame
import proofs.«146174_j45715631898813_1_alg».proof.Proof.Gen.KernelIdeal
import proofs.«146174_j45715631898813_1_alg».proof.Proof.Gen.KernelIdeal.Skeleton
import proofs.«146174_j45715631898813_1_alg».proof.Proof.Gen.KernelIdeal.Launch
import proofs.«146174_j45715631898813_1_alg».proof.Proof.Gen.KernelIdeal.Points
import proofs.«146174_j45715631898813_1_alg».proof.Proof.Gen.KernelIdeal.Frame
import proofs.«146174_j45715631898813_1_alg».proof.Proof.Gen.ReferenceIdeal
import proofs.«146174_j45715631898813_1_alg».proof.Proof.Gen.Pre_finite_inputs
import proofs.«146174_j45715631898813_1_alg».proof.Proof.Gen.KernelIdeal.Value
import proofs.«146174_j45715631898813_1_alg».proof.Proof.Gen.ReferenceIdeal.Run
import proofs.«146174_j45715631898813_1_alg».proof.Proof.Gen.ReferenceIdeal.Read
import proofs.«146174_j45715631898813_1_alg».proof.Proof.Projection
import proofs.«146174_j45715631898813_1_alg».proof.Proof.ReferenceValue
import proofs.«146174_j45715631898813_1_alg».proof.Proof.Messages
import proofs.«146174_j45715631898813_1_alg».proof.Proof.KernelValue
import Idealize.ShloMosaic.Adequacy
import Idealize.ShloMosaic.Init

noncomputable section

namespace Cert.Proof

open Idealize.ShloMosaic Idealize.ShloMosaic.TcCoe Idealize.SL.Sem

/-! ## The three runs -/

theorem frame_kernel : Cert.frame_Kernel := fun m ρ _ => Cert.Kernel.Gen.frame m ρ

theorem frame_ideal : Cert.frame_KernelIdeal := fun m ρ _ => Cert.KernelIdeal.Gen.frame m ρ

/-- The reference has no region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-! ## The kernel's result as a function of the launch contents -/

section
open Cert.KernelIdeal Cert.KernelIdeal.Gen

/-- The arrays the region finds are the launch contents, but for the messages, which the host operations before the
    region computed: the reference's sparse product of the launch contents. -/
theorem target_launch (m : (ℓ : Loc nD τ sig) → Buf (Elt Ideal) ℓ) (c : Dev nD) :
    Cert.KernelIdeal.Whole.target m c
      = Cert.Projection.fused
          (Cert.ReferenceIdeal.Read.val_main_v12 (F := Ideal) (m ((c : Thread nD τ).loc main_arg0)) (m ((c : Thread nD τ).loc main_arg1))
            (m ((c : Thread nD τ).loc main_arg2)) (m ((c : Thread nD τ).loc main_arg3)))
          (m ((c : Thread nD τ).loc main_arg3)) (m ((c : Thread nD τ).loc main_arg4)) (m ((c : Thread nD τ).loc main_arg5))
          (m ((c : Thread nD τ).loc main_arg6)) (m ((c : Thread nD τ).loc main_arg7)) := by
  have h0 : (V m c (Pipeline.arrRef spec0 0) : S100000x128.Idx → EReal)
      = Cert.ReferenceIdeal.Read.val_main_v12 (F := Ideal) (m ((c : Thread nD τ).loc main_arg0)) (m ((c : Thread nD τ).loc main_arg1))
          (m ((c : Thread nD τ).loc main_arg2)) (m ((c : Thread nD τ).loc main_arg3)) := Cert.KernelIdeal.Messages.found m c
  have h1 : V m c (Pipeline.arrRef spec0 1) = m ((c : Thread nD τ).loc main_arg3) := V_main_arg3 m c
  have h2 : V m c (Pipeline.arrRef spec0 2) = m ((c : Thread nD τ).loc main_arg4) := V_main_arg4 m c
  have h3 : V m c (Pipeline.arrRef spec0 3) = m ((c : Thread nD τ).loc main_arg5) := V_main_arg5 m c
  have h4 : V m c (Pipeline.arrRef spec0 4) = m ((c : Thread nD τ).loc main_arg6) := V_main_arg6 m c
  have h5 : V m c (Pipeline.arrRef spec0 5) = m ((c : Thread nD τ).loc main_arg7) := V_main_arg7 m c
  unfold Cert.KernelIdeal.Whole.target
  rw [h0, h1, h2, h3, h4, h5]

end

/-! ## The two results are one function of the arguments -/

/-- Both runs end with the result array at `Projection.fused` of the sparse product of the arguments, the embeddings,
    the weights and the biases: the kernel's by its blocks, the reference's stage by stage. -/
theorem algebraic : Cert.algebraic_KernelIdeal_ReferenceIdeal := by
  intro m ρ m' ρ' _ hagree
  refine ⟨fun c => Cert.KernelIdeal.Whole.target m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v20_eq, Cert.ReferenceIdeal.Projected.result_eq, a0, a1, a2, a3, a4, a5, a6, a7]
  exact (target_launch m c).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
